-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096x9x1 : Shape := ⟨4, ![128, 4096, 9, 1]⟩
abbrev S9x4 : Shape := ⟨2, ![9, 4]⟩
abbrev S4x16 : Shape := ⟨2, ![4, 16]⟩
abbrev S16x9 : Shape := ⟨2, ![16, 9]⟩
abbrev S128x4096x16 : Shape := ⟨3, ![128, 4096, 16]⟩
abbrev S_ : Shape := ⟨0, ![]⟩

class Facts : Prop where
  bcast_S_S128x4096x9x1 : S_.BroadcastsInDim S128x4096x9x1 (![] : Fin 0 → Fin S128x4096x9x1.rank)
  reducesTo_S128x4096x9x1_S_d0_1_2_3 : S128x4096x9x1.ReducesTo [0, 1, 2, 3] S_
  h_S_ : 0 < S_.numel
  bcast_S_S9x4 : S_.BroadcastsInDim S9x4 (![] : Fin 0 → Fin S9x4.rank)
  reducesTo_S9x4_S_d0_1 : S9x4.ReducesTo [0, 1] S_
  bcast_S_S4x16 : S_.BroadcastsInDim S4x16 (![] : Fin 0 → Fin S4x16.rank)
  reducesTo_S4x16_S_d0_1 : S4x16.ReducesTo [0, 1] S_
  bcast_S_S16x9 : S_.BroadcastsInDim S16x9 (![] : Fin 0 → Fin S16x9.rank)
  reducesTo_S16x9_S_d0_1 : S16x9.ReducesTo [0, 1] S_
  bcast_S_S128x4096x16 : S_.BroadcastsInDim S128x4096x16 (![] : Fin 0 → Fin S128x4096x16.rank)
  reducesTo_S128x4096x16_S_d0_1_2 : S128x4096x16.ReducesTo [0, 1, 2] S_

variable [Facts]

def fn_part1 {F : FTy → Type} [FloatOps F] (main_arg4 : FVec F S128x4096x16 .f32) (main_arg5 : FVec F S128x4096x16 .f32) (main_v13 : IVec S_ 1) (main_v16 : IVec S16x9 1) : IVec S_ 1 :=
  let main_c_5 : IVec S_ 1 := constantI S_ 1 1#1
  let main_v17 : IVec S_ 1 := (fun x v => Host.reduce IntOp.andi x v reducesTo_S16x9_S_d0_1 h_S_) main_v16 main_c_5
  let main_v18 : IVec S_ 1 := andi main_v13 main_v17
  let main_v19 : FVec F S128x4096x16 .f32 := Host.absf main_arg4
  let main_cst_6 : FVec F S_ .f32 := constant S_ .f32 0x7F800000#32
  let main_v20 : FVec F S128x4096x16 .f32 := broadcastInDim S128x4096x16 ![] bcast_S_S128x4096x16 main_cst_6
  let main_v21 : IVec S128x4096x16 1 := cmpf .olt main_v19 main_v20
  let main_c_7 : IVec S_ 1 := constantI S_ 1 1#1
  let main_v22 : IVec S_ 1 := (fun x v => Host.reduce IntOp.andi x v reducesTo_S128x4096x16_S_d0_1_2 h_S_) main_v21 main_c_7
  let main_v23 : IVec S_ 1 := andi main_v18 main_v22
  let main_v24 : FVec F S128x4096x16 .f32 := Host.absf main_arg5
  let main_cst_8 : FVec F S_ .f32 := constant S_ .f32 0x7F800000#32
  let main_v25 : FVec F S128x4096x16 .f32 := broadcastInDim S128x4096x16 ![] bcast_S_S128x4096x16 main_cst_8
  let main_v26 : IVec S128x4096x16 1 := cmpf .olt main_v24 main_v25
  let main_c_9 : IVec S_ 1 := constantI S_ 1 1#1
  let main_v27 : IVec S_ 1 := (fun x v => Host.reduce IntOp.andi x v reducesTo_S128x4096x16_S_d0_1_2 h_S_) main_v26 main_c_9
  let main_v28 : IVec S_ 1 := andi main_v23 main_v27
  main_v28

def fn {F : FTy → Type} [FloatOps F] (main_arg0 : FVec F S128x4096x9x1 .f32) (main_arg1 : FVec F S9x4 .f32) (main_arg2 : FVec F S4x16 .f32) (main_arg3 : FVec F S16x9 .f32) (main_arg4 : FVec F S128x4096x16 .f32) (main_arg5 : FVec F S128x4096x16 .f32) : IVec S_ 1 :=
  let main_v0 : FVec F S128x4096x9x1 .f32 := Host.absf main_arg0
  let main_cst : FVec F S_ .f32 := constant S_ .f32 0x7F800000#32
  let main_v1 : FVec F S128x4096x9x1 .f32 := broadcastInDim S128x4096x9x1 ![] bcast_S_S128x4096x9x1 main_cst
  let main_v2 : IVec S128x4096x9x1 1 := cmpf .olt main_v0 main_v1
  let main_c : IVec S_ 1 := constantI S_ 1 1#1
  let main_v3 : IVec S_ 1 := (fun x v => Host.reduce IntOp.andi x v reducesTo_S128x4096x9x1_S_d0_1_2_3 h_S_) main_v2 main_c
  let main_v4 : FVec F S9x4 .f32 := Host.absf main_arg1
  let main_cst_0 : FVec F S_ .f32 := constant S_ .f32 0x7F800000#32
  let main_v5 : FVec F S9x4 .f32 := broadcastInDim S9x4 ![] bcast_S_S9x4 main_cst_0
  let main_v6 : IVec S9x4 1 := cmpf .olt main_v4 main_v5
  let main_c_1 : IVec S_ 1 := constantI S_ 1 1#1
  let main_v7 : IVec S_ 1 := (fun x v => Host.reduce IntOp.andi x v reducesTo_S9x4_S_d0_1 h_S_) main_v6 main_c_1
  let main_v8 : IVec S_ 1 := andi main_v3 main_v7
  let main_v9 : FVec F S4x16 .f32 := Host.absf main_arg2
  let main_cst_2 : FVec F S_ .f32 := constant S_ .f32 0x7F800000#32
  let main_v10 : FVec F S4x16 .f32 := broadcastInDim S4x16 ![] bcast_S_S4x16 main_cst_2
  let main_v11 : IVec S4x16 1 := cmpf .olt main_v9 main_v10
  let main_c_3 : IVec S_ 1 := constantI S_ 1 1#1
  let main_v12 : IVec S_ 1 := (fun x v => Host.reduce IntOp.andi x v reducesTo_S4x16_S_d0_1 h_S_) main_v11 main_c_3
  let main_v13 : IVec S_ 1 := andi main_v8 main_v12
  let main_v14 : FVec F S16x9 .f32 := Host.absf main_arg3
  let main_cst_4 : FVec F S_ .f32 := constant S_ .f32 0x7F800000#32
  let main_v15 : FVec F S16x9 .f32 := broadcastInDim S16x9 ![] bcast_S_S16x9 main_cst_4
  let main_v16 : IVec S16x9 1 := cmpf .olt main_v14 main_v15
  fn_part1 (F := F) main_arg4 main_arg5 main_v13 main_v16
-- ==== Kernel.lean ====
abbrev S128x4096x9x1 : Shape := ⟨4, ![128, 4096, 9, 1]⟩
abbrev S9x4 : Shape := ⟨2, ![9, 4]⟩
abbrev S4x16 : Shape := ⟨2, ![4, 16]⟩
abbrev S16x9 : Shape := ⟨2, ![16, 9]⟩
abbrev S128x4096x16 : Shape := ⟨3, ![128, 4096, 16]⟩
abbrev S128x4096x9 : Shape := ⟨3, ![128, 4096, 9]⟩
abbrev S524288x9 : Shape := ⟨2, ![524288, 9]⟩
abbrev S524288x16 : Shape := ⟨2, ![524288, 16]⟩
abbrev S2048x9 : Shape := ⟨2, ![2048, 9]⟩
abbrev S2048x16 : Shape := ⟨2, ![2048, 16]⟩
abbrev S2048x4 : Shape := ⟨2, ![2048, 4]⟩

abbrev nBuf : Space → Nat
  | .hbm => 16
  | .vmem => 15
  | .smem => 0
  | _ => 0

abbrev bufTy : (tb : Table) → Fin (tcTables nBuf tb) → BufTy
  | .hbm, ⟨0, _⟩ => ⟨S128x4096x9x1, .f32⟩
  | .hbm, ⟨1, _⟩ => ⟨S9x4, .f32⟩
  | .hbm, ⟨2, _⟩ => ⟨S4x16, .f32⟩
  | .hbm, ⟨3, _⟩ => ⟨S16x9, .f32⟩
  | .hbm, ⟨4, _⟩ => ⟨S128x4096x16, .f32⟩
  | .hbm, ⟨5, _⟩ => ⟨S128x4096x16, .f32⟩
  | .hbm, ⟨6, _⟩ => ⟨S128x4096x9, .f32⟩
  | .hbm, ⟨7, _⟩ => ⟨S524288x9, .f32⟩
  | .hbm, ⟨8, _⟩ => ⟨S524288x16, .f32⟩
  | .hbm, ⟨9, _⟩ => ⟨S524288x16, .f32⟩
  | .hbm, ⟨10, _⟩ => ⟨S524288x9, .f32⟩
  | .hbm, ⟨11, _⟩ => ⟨S524288x16, .f32⟩
  | .hbm, ⟨12, _⟩ => ⟨S524288x16, .f32⟩
  | .hbm, ⟨13, _⟩ => ⟨S128x4096x9, .f32⟩
  | .hbm, ⟨14, _⟩ => ⟨S128x4096x16, .f32⟩
  | .hbm, ⟨15, _⟩ => ⟨S128x4096x16, .f32⟩
  | .local _ .vmem, ⟨0, _⟩ => ⟨S2048x9, .f32⟩
  | .local _ .vmem, ⟨1, _⟩ => ⟨S2048x9, .f32⟩
  | .local _ .vmem, ⟨2, _⟩ => ⟨S2048x16, .f32⟩
  | .local _ .vmem, ⟨3, _⟩ => ⟨S2048x16, .f32⟩
  | .local _ .vmem, ⟨4, _⟩ => ⟨S2048x16, .f32⟩
  | .local _ .vmem, ⟨5, _⟩ => ⟨S2048x16, .f32⟩
  | .local _ .vmem, ⟨6, _⟩ => ⟨S9x4, .f32⟩
  | .local _ .vmem, ⟨7, _⟩ => ⟨S4x16, .f32⟩
  | .local _ .vmem, ⟨8, _⟩ => ⟨S16x9, .f32⟩
  | .local _ .vmem, ⟨9, _⟩ => ⟨S2048x9, .f32⟩
  | .local _ .vmem, ⟨10, _⟩ => ⟨S2048x9, .f32⟩
  | .local _ .vmem, ⟨11, _⟩ => ⟨S2048x16, .f32⟩
  | .local _ .vmem, ⟨12, _⟩ => ⟨S2048x16, .f32⟩
  | .local _ .vmem, ⟨13, _⟩ => ⟨S2048x16, .f32⟩
  | .local _ .vmem, ⟨14, _⟩ => ⟨S2048x16, .f32⟩
  | _, _ => ⟨S128x4096x9x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x9 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x9 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S128x4096x9x1_S128x4096x9 : S128x4096x9x1.ShapeCasts S128x4096x9
  shapeCasts_S128x4096x9_S524288x9 : S128x4096x9.ShapeCasts S524288x9
  shapeCasts_S128x4096x16_S524288x16 : S128x4096x16.ShapeCasts S524288x16
  inb_S2048x9_S2048x9_0_0 : ∀ a, (![0, 0] : Fin 2 → Nat) a + S2048x9.size a ≤ S2048x9.size a
  h_S2048x9 : 0 < S2048x9.numel
  shapeCasts_S2048x9_S2048x9 : S2048x9.ShapeCasts S2048x9
  inb_S9x4_S9x4_0_0 : ∀ a, (![0, 0] : Fin 2 → Nat) a + S9x4.size a ≤ S9x4.size a
  h_S9x4 : 0 < S9x4.numel
  bitsLt_bf16_f32 : FTy.bits .bf16 < FTy.bits .f32
  inb_S4x16_S4x16_0_0 : ∀ a, (![0, 0] : Fin 2 → Nat) a + S4x16.size a ≤ S4x16.size a
  h_S4x16 : 0 < S4x16.numel
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S16x9_S16x9_0_0 : ∀ a, (![0, 0] : Fin 2 → Nat) a + S16x9.size a ≤ S16x9.size a
  h_S16x9 : 0 < S16x9.numel
  shapeCasts_S524288x9_S128x4096x9 : S524288x9.ShapeCasts S128x4096x9
  shapeCasts_S524288x16_S128x4096x16 : S524288x16.ShapeCasts S128x4096x16
  dot_S2048x9_S9x4_S2048x4_1_0_0_1_n_n_wf : DotDims.WF S2048x9 S9x4 S2048x4 [1] [0] [0] [1] [] []
  dot_S2048x4_S4x16_S2048x16_1_0_0_1_n_n_wf : DotDims.WF S2048x4 S4x16 S2048x16 [1] [0] [0] [1] [] []
  dot_S2048x16_S16x9_S2048x9_1_0_0_1_n_n_wf : DotDims.WF S2048x16 S16x9 S2048x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x9.size a ≤ S524288x9.size a
  hwx0_0 : ∀ i : grid0.Coords, EltTy.bits .f32 = 32 ∨ (Rect.block (s := S524288x9) S2048x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S524288x16.size a
  hwx0_1 : ∀ i : grid0.Coords, EltTy.bits .f32 = 32 ∨ (Rect.block (s := S524288x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S524288x16.size a
  hwx0_2 : ∀ i : grid0.Coords, EltTy.bits .f32 = 32 ∨ (Rect.block (s := S524288x16) S2048x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x4.size a ≤ S9x4.size a
  hwx0_3 : ∀ i : grid0.Coords, EltTy.bits .f32 = 32 ∨ (Rect.block (s := S9x4) S9x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x16.size a ≤ S4x16.size a
  hwx0_4 : ∀ i : grid0.Coords, EltTy.bits .f32 = 32 ∨ (Rect.block (s := S4x16) S4x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x9.size a ≤ S16x9.size a
  hwx0_5 : ∀ i : grid0.Coords, EltTy.bits .f32 = 32 ∨ (Rect.block (s := S16x9) S16x9.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x9.size a ≤ S524288x9.size a
  hwx0_6 : ∀ i : grid0.Coords, EltTy.bits .f32 = 32 ∨ (Rect.block (s := S524288x9) S2048x9.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x16.size a ≤ S524288x16.size a
  hwx0_7 : ∀ i : grid0.Coords, EltTy.bits .f32 = 32 ∨ (Rect.block (s := S524288x16) S2048x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x16.size a ≤ S524288x16.size a
  hwx0_8 : ∀ i : grid0.Coords, EltTy.bits .f32 = 32 ∨ (Rect.block (s := S524288x16) S2048x16.size (cc0_transform_8 i) (hinb0_8 i)).WholeWords (EltTy.packing .f32)

variable [Facts₀]

def dot_S2048x9_S9x4_S2048x4_1_0_0_1_n_n : DotDims S2048x9 S9x4 S2048x4 where
  lhsContracting := [1]
  rhsContracting := [0]
  lhsNonContracting := [0]
  rhsNonContracting := [1]
  lhsBatch := []
  rhsBatch := []
  wf := dot_S2048x9_S9x4_S2048x4_1_0_0_1_n_n_wf
def dot_S2048x4_S4x16_S2048x16_1_0_0_1_n_n : DotDims S2048x4 S4x16 S2048x16 where
  lhsContracting := [1]
  rhsContracting := [0]
  lhsNonContracting := [0]
  rhsNonContracting := [1]
  lhsBatch := []
  rhsBatch := []
  wf := dot_S2048x4_S4x16_S2048x16_1_0_0_1_n_n_wf
def dot_S2048x16_S16x9_S2048x9_1_0_0_1_n_n : DotDims S2048x16 S16x9 S2048x9 where
  lhsContracting := [1]
  rhsContracting := [0]
  lhsNonContracting := [0]
  rhsNonContracting := [1]
  lhsBatch := []
  rhsBatch := []
  wf := dot_S2048x16_S16x9_S2048x9_1_0_0_1_n_n_wf

abbrev win0_0 : Pipeline.Window sig grid0 :=
  Pipeline.Window.ofSpec (Memref.whole main_v1) S2048x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S9x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S4x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S16x9.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S2048x9.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S2048x16.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_2) S2048x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S128x4096x9x1 : Shape := ⟨4, ![128, 4096, 9, 1]⟩
abbrev S9x4 : Shape := ⟨2, ![9, 4]⟩
abbrev S4x16 : Shape := ⟨2, ![4, 16]⟩
abbrev S16x9 : Shape := ⟨2, ![16, 9]⟩
abbrev S128x4096x16 : Shape := ⟨3, ![128, 4096, 16]⟩
abbrev S128x4096x9 : Shape := ⟨3, ![128, 4096, 9]⟩
abbrev S128x4096x4 : Shape := ⟨3, ![128, 4096, 4]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S128x4096x9x1, .f32⟩
  | .hbm, ⟨1, _⟩ => ⟨S9x4, .f32⟩
  | .hbm, ⟨2, _⟩ => ⟨S4x16, .f32⟩
  | .hbm, ⟨3, _⟩ => ⟨S16x9, .f32⟩
  | .hbm, ⟨4, _⟩ => ⟨S128x4096x16, .f32⟩
  | .hbm, ⟨5, _⟩ => ⟨S128x4096x16, .f32⟩
  | .hbm, ⟨6, _⟩ => ⟨S128x4096x9, .f32⟩
  | .hbm, ⟨7, _⟩ => ⟨S128x4096x4, .f32⟩
  | .hbm, ⟨8, _⟩ => ⟨S128x4096x4, .f32⟩
  | .hbm, ⟨9, _⟩ => ⟨S128x4096x16, .f32⟩
  | .hbm, ⟨10, _⟩ => ⟨S128x4096x16, .f32⟩
  | .hbm, ⟨11, _⟩ => ⟨S128x4096x16, .f32⟩
  | .hbm, ⟨12, _⟩ => ⟨S128x4096x16, .f32⟩
  | .hbm, ⟨13, _⟩ => ⟨S_, .f32⟩
  | .hbm, ⟨14, _⟩ => ⟨S128x4096x16, .f32⟩
  | .hbm, ⟨15, _⟩ => ⟨S128x4096x16, .f32⟩
  | .hbm, ⟨16, _⟩ => ⟨S_, .f32⟩
  | .hbm, ⟨17, _⟩ => ⟨S128x4096x16, .f32⟩
  | .hbm, ⟨18, _⟩ => ⟨S128x4096x16, .f32⟩
  | .hbm, ⟨19, _⟩ => ⟨S128x4096x16, .f32⟩
  | .hbm, ⟨20, _⟩ => ⟨S_, .f32⟩
  | .hbm, ⟨21, _⟩ => ⟨S128x4096x16, .f32⟩
  | .hbm, ⟨22, _⟩ => ⟨S128x4096x16, .f32⟩
  | .hbm, ⟨23, _⟩ => ⟨S128x4096x16, .f32⟩
  | .hbm, ⟨24, _⟩ => ⟨S128x4096x16, .f32⟩
  | .hbm, ⟨25, _⟩ => ⟨S128x4096x16, .f32⟩
  | .hbm, ⟨26, _⟩ => ⟨S128x4096x16, .f32⟩
  | .hbm, ⟨27, _⟩ => ⟨S128x4096x9, .f32⟩
  | .hbm, ⟨28, _⟩ => ⟨S128x4096x9, .f32⟩
  | _, _ => ⟨S128x4096x9x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  shapeCasts_S128x4096x9x1_S128x4096x9 : S128x4096x9x1.ShapeCasts S128x4096x9
  bcast_S_S128x4096x16 : S_.BroadcastsInDim S128x4096x16 (![] : Fin 0 → Fin S128x4096x16.rank)
  dot_S128x4096x9_S9x4_S128x4096x4_2_0_01_1_n_n_wf : DotDims.WF S128x4096x9 S9x4 S128x4096x4 [2] [0] [0, 1] [1] [] []
  dot_S128x4096x4_S4x16_S128x4096x16_2_0_01_1_n_n_wf : DotDims.WF S128x4096x4 S4x16 S128x4096x16 [2] [0] [0, 1] [1] [] []
  dot_S128x4096x16_S16x9_S128x4096x9_2_0_01_1_n_n_wf : DotDims.WF S128x4096x16 S16x9 S128x4096x9 [2] [0] [0, 1] [1] [] []

variable [Facts₀]

def dot_S128x4096x9_S9x4_S128x4096x4_2_0_01_1_n_n : DotDims S128x4096x9 S9x4 S128x4096x4 where
  lhsContracting := [2]
  rhsContracting := [0]
  lhsNonContracting := [0, 1]
  rhsNonContracting := [1]
  lhsBatch := []
  rhsBatch := []
  wf := dot_S128x4096x9_S9x4_S128x4096x4_2_0_01_1_n_n_wf
def dot_S128x4096x4_S4x16_S128x4096x16_2_0_01_1_n_n : DotDims S128x4096x4 S4x16 S128x4096x16 where
  lhsContracting := [2]
  rhsContracting := [0]
  lhsNonContracting := [0, 1]
  rhsNonContracting := [1]
  lhsBatch := []
  rhsBatch := []
  wf := dot_S128x4096x4_S4x16_S128x4096x16_2_0_01_1_n_n_wf
def dot_S128x4096x16_S16x9_S128x4096x9_2_0_01_1_n_n : DotDims S128x4096x16 S16x9 S128x4096x9 where
  lhsContracting := [2]
  rhsContracting := [0]
  lhsNonContracting := [0, 1]
  rhsNonContracting := [1]
  lhsBatch := []
  rhsBatch := []
  wf := dot_S128x4096x16_S16x9_S128x4096x9_2_0_01_1_n_n_wf

class Facts : Prop extends Facts₀ where

variable [Facts]
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.NodeCell.lean ====
/-
  One node's update, on the extended reals, and the three result arrays it defines.

  A node carries a 9-vector x, a hidden 16-vector h and a cell 16-vector s; the three weight matrices are
  W₁ (9×4), W₂ (4×16) and W₃ (16×9). The update is

    pre  p = tanh (∑ i, x i · W₁ i p)
    net  c = (∑ p, pre p · W₂ p c) + h c
    cell c = (1 − σ (net c)) · s c + σ (net c) · tanh (net c)          σ z = 1 / (1 + e^(−z))
    hid  c = tanh (cell c)
    out  o = tanh (∑ c, hid c · W₃ c o)

  Every operation is the exact one on the extended reals; nothing here needs the entries to be finite, because both
  programs compared against this specification apply the same operations in the same grouping.

  The nodes form a 128 × 4096 grid: node (b, n) reads x from the input array at (b, n, ·, 0) and h, s from the two state
  arrays at (b, n, ·). The three results are the arrays of cell, hid and out over all nodes.
-/
import Idealize.ShloMosaic.Lib.ValueIdx

noncomputable section

namespace Cert.NodeCell

open Idealize.ShloMosaic Idealize.ShloMosaic.ValueIdx

/-- The pre-layer: tanh of the input row against column p of W₁. -/
def pre (x : Fin 9 → EReal) (W₁ : Fin 9 → Fin 4 → EReal) (p : Fin 4) : EReal :=
  Ideal.tanh (∑ i : Fin 9, x i * W₁ i p)

/-- The gate's argument: the pre-layer against column c of W₂, plus the old hidden state. -/
def net (x : Fin 9 → EReal) (W₁ : Fin 9 → Fin 4 → EReal) (W₂ : Fin 4 → Fin 16 → EReal) (h : Fin 16 → EReal)
    (c : Fin 16) : EReal :=
  (∑ p : Fin 4, pre x W₁ p * W₂ p c) + h c

/-- The coupled gate: with i = σ z, the old cell value s kept with weight 1 − i and tanh z taken with weight i. -/
def mix (z s : EReal) : EReal :=
  (1 - Ideal.logistic z) * s + Ideal.logistic z * Ideal.tanh z

/-- The new cell state. -/
def cell (x : Fin 9 → EReal) (W₁ : Fin 9 → Fin 4 → EReal) (W₂ : Fin 4 → Fin 16 → EReal) (h s : Fin 16 → EReal)
    (c : Fin 16) : EReal :=
  mix (net x W₁ W₂ h c) (s c)

/-- The new hidden state. -/
def hid (x : Fin 9 → EReal) (W₁ : Fin 9 → Fin 4 → EReal) (W₂ : Fin 4 → Fin 16 → EReal) (h s : Fin 16 → EReal)
    (c : Fin 16) : EReal :=
  Ideal.tanh (cell x W₁ W₂ h s c)

/-- The post-layer: tanh of the new hidden state against column o of W₃. -/
def out (x : Fin 9 → EReal) (W₁ : Fin 9 → Fin 4 → EReal) (W₂ : Fin 4 → Fin 16 → EReal) (W₃ : Fin 16 → Fin 9 → EReal)
    (h s : Fin 16 → EReal) (o : Fin 9) : EReal :=
  Ideal.tanh (∑ c : Fin 16, hid x W₁ W₂ h s c * W₃ c o)

/-! ## Rows and matrices of arrays -/

/-- Row y of a two-axis array with K columns. -/
abbrev row {R K : Nat} (x : (⟨2, ![R, K]⟩ : Shape).Idx → EReal) (y : Fin R) : Fin K → EReal := fun k => x (ix2 y k)

/-- A two-axis array as a function of its two coordinates. -/
abbrev mat {A B : Nat} (w : (⟨2, ![A, B]⟩ : Shape).Idx → EReal) : Fin A → Fin B → EReal := fun a b => w (ix2 a b)

/-- Node (b, n)'s input vector: the input array at (b, n, ·, 0). -/
abbrev xAt (X : (⟨4, ![128, 4096, 9, 1]⟩ : Shape).Idx → EReal) (b : Fin 128) (n : Fin 4096) : Fin 9 → EReal :=
  fun i => X (ix4 b n i 0)

/-- Node (b, n)'s state vector: a state array at (b, n, ·). -/
abbrev sAt (S : (⟨3, ![128, 4096, 16]⟩ : Shape).Idx → EReal) (b : Fin 128) (n : Fin 4096) : Fin 16 → EReal :=
  fun k => S (ix3 b n k)

/-! ## The three result arrays -/

/-- The new cell state of every node. -/
def cellArr (X : (⟨4, ![128, 4096, 9, 1]⟩ : Shape).Idx → EReal) (W₁ : (⟨2, ![9, 4]⟩ : Shape).Idx → EReal)
    (W₂ : (⟨2, ![4, 16]⟩ : Shape).Idx → EReal) (H S : (⟨3, ![128, 4096, 16]⟩ : Shape).Idx → EReal) :
    (⟨3, ![128, 4096, 16]⟩ : Shape).Idx → EReal :=
  fun j => cell (xAt X (j 0) (j 1)) (mat W₁) (mat W₂) (sAt H (j 0) (j 1)) (sAt S (j 0) (j 1)) (j 2)

/-- The new hidden state of every node. -/
def hidArr (X : (⟨4, ![128, 4096, 9, 1]⟩ : Shape).Idx → EReal) (W₁ : (⟨2, ![9, 4]⟩ : Shape).Idx → EReal)
    (W₂ : (⟨2, ![4, 16]⟩ : Shape).Idx → EReal) (H S : (⟨3, ![128, 4096, 16]⟩ : Shape).Idx → EReal) :
    (⟨3, ![128, 4096, 16]⟩ : Shape).Idx → EReal :=
  fun j => hid (xAt X (j 0) (j 1)) (mat W₁) (mat W₂) (sAt H (j 0) (j 1)) (sAt S (j 0) (j 1)) (j 2)

/-- The output of every node. -/
def outArr (X : (⟨4, ![128, 4096, 9, 1]⟩ : Shape).Idx → EReal) (W₁ : (⟨2, ![9, 4]⟩ : Shape).Idx → EReal)
    (W₂ : (⟨2, ![4, 16]⟩ : Shape).Idx → EReal) (W₃ : (⟨2, ![16, 9]⟩ : Shape).Idx → EReal)
    (H S : (⟨3, ![128, 4096, 16]⟩ : Shape).Idx → EReal) : (⟨3, ![128, 4096, 9]⟩ : Shape).Idx → EReal :=
  fun j => out (xAt X (j 0) (j 1)) (mat W₁) (mat W₂) (mat W₃) (sAt H (j 0) (j 1)) (sAt S (j 0) (j 1)) (j 2)

end Cert.NodeCell

end
-- ==== Proof.KernelRows.lean ====
/-
  What the kernel body computes, row by row.

  The body sees 2048 consecutive nodes at a time: a 2048×9 block of inputs, 2048×16 blocks of hidden and cell state,
  and the three weight matrices whole. Its three stored values, read at row y, are the node update of NodeCell
  applied to row y of the blocks: the new cell state, the new hidden state and the output. The matrix unit's products
  into a zero accumulator are the plain sums over the contracted coordinate, and the narrowing to the 16-bit format
  before each product is the identity on the extended reals.
-/
import proofs.«150069_j4406636445738_1_alg».proof.Proof.Gen.KernelIdeal.Skeleton
import proofs.«150069_j4406636445738_1_alg».proof.Proof.LibContractPlain
import proofs.«150069_j4406636445738_1_alg».proof.Proof.NodeCell
import Idealize.ShloMosaic.Lib.ValueIdx
import Idealize.ShloMosaic.Lib.Pipeline.Value
import Idealize.ShloMosaic.Lib.IdealHost

noncomputable section

namespace Cert.KernelRows

open Idealize.ShloMosaic Idealize.ShloMosaic.ValueIdx
open Cert.KernelIdeal Cert.KernelIdeal.Gen Cert.Lib.ContractPlain
open Cert.NodeCell (row mat)

/-- The pre-layer of the block: tanh of the first product. -/
def preBlk (x : Vec Ideal S2048x9 .f32) (w₁ : Vec Ideal S9x4 .f32) : FVec Ideal S2048x4 .f32 :=
  tanh (matmul dot_S2048x9_S9x4_S2048x4_1_0_0_1_n_n none
    (truncf .bf16 (shapeCast S2048x9 x shapeCasts_S2048x9_S2048x9) bitsLt_bf16_f32)
    (truncf .bf16 w₁ bitsLt_bf16_f32) (constant S2048x4 .f32 0x00000000#32))

/-- At row y and column p it is the node's pre-layer on row y. -/
theorem preBlk_apply (x : Vec Ideal S2048x9 .f32) (w₁ : Vec Ideal S9x4 .f32) (y : Fin 2048) (p : Fin 4) :
    preBlk x w₁ (ix2 y p) = NodeCell.pre (row x y) (mat w₁) p := by
  unfold preBlk
  show Ideal.tanh (matmul dot_S2048x9_S9x4_S2048x4_1_0_0_1_n_n none
    (truncf .bf16 (shapeCast S2048x9 x shapeCasts_S2048x9_S2048x9) bitsLt_bf16_f32) (truncf .bf16 w₁ bitsLt_bf16_f32)
    (constant (F := Ideal) ⟨2, ![2048, 4]⟩ .f32 0x00000000#32) (ix2 y p)) = _
  rw [matmulZero_apply dot_S2048x9_S9x4_S2048x4_1_0_0_1_n_n rfl, shapeCast_self]
  rfl

/-- The gate's argument of the block: the second product plus the hidden block. -/
def netBlk (x : Vec Ideal S2048x9 .f32) (w₁ : Vec Ideal S9x4 .f32) (w₂ : Vec Ideal S4x16 .f32)
    (h : Vec Ideal S2048x16 .f32) : FVec Ideal S2048x16 .f32 :=
  addf (matmul dot_S2048x4_S4x16_S2048x16_1_0_0_1_n_n none (truncf .bf16 (preBlk x w₁) bitsLt_bf16_f32)
      (truncf .bf16 w₂ bitsLt_bf16_f32) (constant S2048x16 .f32 0x00000000#32))
    (shapeCast S2048x16 h shapeCasts_S2048x16_S2048x16)

/-- At row y and column c it is the node's gate argument on row y. -/
theorem netBlk_apply (x : Vec Ideal S2048x9 .f32) (w₁ : Vec Ideal S9x4 .f32) (w₂ : Vec Ideal S4x16 .f32)
    (h : Vec Ideal S2048x16 .f32) (y : Fin 2048) (c : Fin 16) :
    netBlk x w₁ w₂ h (ix2 y c) = NodeCell.net (row x y) (mat w₁) (mat w₂) (row h y) c := by
  unfold netBlk
  show matmul dot_S2048x4_S4x16_S2048x16_1_0_0_1_n_n none (truncf .bf16 (preBlk x w₁) bitsLt_bf16_f32)
      (truncf .bf16 w₂ bitsLt_bf16_f32) (constant (F := Ideal) ⟨2, ![2048, 16]⟩ .f32 0x00000000#32) (ix2 y c)
    + shapeCast S2048x16 h shapeCasts_S2048x16_S2048x16 (ix2 y c) = _
  rw [matmulZero_apply dot_S2048x4_S4x16_S2048x16_1_0_0_1_n_n rfl, shapeCast_self]
  unfold NodeCell.net
  congr 1
  refine Finset.sum_congr rfl fun p _ => ?_
  show preBlk x w₁ (ix2 y p) * _ = _
  rw [preBlk_apply]
  rfl

/-- The stored cell block is the coupled gate applied, entry by entry, to the gate-argument block and the cell block. -/
theorem pay1_eq (x : Vec Ideal S2048x9 .f32) (w₁ : Vec Ideal S9x4 .f32) (w₂ : Vec Ideal S4x16 .f32)
    (h s : Vec Ideal S2048x16 .f32) :
    k0_pay1 x w₁ w₂ h s
      = addf (mulf (subf (broadcast S2048x16 (Scalar.ofBits (F := Ideal) .f32 0x3F800000#32)) (logistic (netBlk x w₁ w₂ h)))
          (shapeCast S2048x16 s shapeCasts_S2048x16_S2048x16))
        (mulf (logistic (netBlk x w₁ w₂ h)) (tanh (netBlk x w₁ w₂ h))) := rfl

/-- The stored cell block at row y, column c. -/
theorem cell_apply (x : Vec Ideal S2048x9 .f32) (w₁ : Vec Ideal S9x4 .f32) (w₂ : Vec Ideal S4x16 .f32)
    (h s : Vec Ideal S2048x16 .f32) (y : Fin 2048) (c : Fin 16) :
    k0_pay1 x w₁ w₂ h s (ix2 y c) = NodeCell.cell (row x y) (mat w₁) (mat w₂) (row h y) (row s y) c := by
  rw [pay1_eq]
  show (Ideal.ofBits .f32 0x3F800000#32 - Ideal.logistic (netBlk x w₁ w₂ h (ix2 y c)))
        * shapeCast S2048x16 s shapeCasts_S2048x16_S2048x16 (ix2 y c)
      + Ideal.logistic (netBlk x w₁ w₂ h (ix2 y c)) * Ideal.tanh (netBlk x w₁ w₂ h (ix2 y c)) = _
  rw [netBlk_apply, shapeCast_self, Ideal.ofBits_one_f32]
  rfl

/-- The stored hidden block at row y, column c. -/
theorem hid_apply (x : Vec Ideal S2048x9 .f32) (w₁ : Vec Ideal S9x4 .f32) (w₂ : Vec Ideal S4x16 .f32)
    (h s : Vec Ideal S2048x16 .f32) (y : Fin 2048) (c : Fin 16) :
    k0_pay2 x w₁ w₂ h s (ix2 y c) = NodeCell.hid (row x y) (mat w₁) (mat w₂) (row h y) (row s y) c := by
  unfold k0_pay2
  show Ideal.tanh (k0_pay1 x w₁ w₂ h s (ix2 y c)) = _
  rw [cell_apply]
  rfl

/-- The stored output block at row y, column o. -/
theorem out_apply (x : Vec Ideal S2048x9 .f32) (w₁ : Vec Ideal S9x4 .f32) (w₂ : Vec Ideal S4x16 .f32)
    (h s : Vec Ideal S2048x16 .f32) (w₃ : Vec Ideal S16x9 .f32) (y : Fin 2048) (o : Fin 9) :
    k0_pay3 x w₁ w₂ h s w₃ (ix2 y o)
      = NodeCell.out (row x y) (mat w₁) (mat w₂) (mat w₃) (row h y) (row s y) o := by
  unfold k0_pay3
  show Ideal.tanh (matmul dot_S2048x16_S16x9_S2048x9_1_0_0_1_n_n none
    (truncf .bf16 (k0_pay2 x w₁ w₂ h s) bitsLt_bf16_f32) (truncf .bf16 w₃ bitsLt_bf16_f32)
    (constant (F := Ideal) ⟨2, ![2048, 9]⟩ .f32 0x00000000#32) (ix2 y o)) = _
  rw [matmulZero_apply dot_S2048x16_S16x9_S2048x9_1_0_0_1_n_n rfl]
  unfold NodeCell.out
  congr 1
  refine Finset.sum_congr rfl fun c _ => ?_
  show k0_pay2 x w₁ w₂ h s (ix2 y c) * _ = _
  rw [hid_apply]
  rfl

end Cert.KernelRows

end
-- ==== Proof.KernelBlocks.lean ====
/-
  From the kernel's blocks to whole arrays over the flattened node axis.

  The region works on the arrays with the two node axes flattened into one of 524288 rows. Grid point t handles rows
  2048·t … 2048·t + 2047: its input blocks are those rows of the three row-indexed arrays and the whole of each weight
  matrix, and what it stores at local row y is the node update of global row 2048·t + y. So each of the three stored
  blocks is the matching block of ONE whole-array function: at row r, NodeCell's cell, hid or out of row r.
-/
import proofs.«150069_j4406636445738_1_alg».proof.Proof.Gen.KernelIdeal.Frame
import proofs.«150069_j4406636445738_1_alg».proof.Proof.KernelRows

set_option maxRecDepth 16384

noncomputable section

namespace Cert.KernelBlocks

open Idealize.ShloMosaic Idealize.ShloMosaic.TcCoe Idealize.ShloMosaic.ValueIdx Idealize.SL.Sem
open Cert.KernelIdeal Cert.KernelIdeal.Gen
open Cert.NodeCell (row mat)

/-! ## The three results over the flattened node axis -/

/-- The new cell state at row r: the node update of row r of the flattened arrays. -/
def cellFlat (X : S524288x9.Idx → EReal) (W₁ : S9x4.Idx → EReal) (W₂ : S4x16.Idx → EReal)
    (H S : S524288x16.Idx → EReal) : S524288x16.Idx → EReal :=
  fun j => NodeCell.cell (row X (j 0)) (mat W₁) (mat W₂) (row H (j 0)) (row S (j 0)) (j 1)

/-- The new hidden state at row r. -/
def hidFlat (X : S524288x9.Idx → EReal) (W₁ : S9x4.Idx → EReal) (W₂ : S4x16.Idx → EReal)
    (H S : S524288x16.Idx → EReal) : S524288x16.Idx → EReal :=
  fun j => NodeCell.hid (row X (j 0)) (mat W₁) (mat W₂) (row H (j 0)) (row S (j 0)) (j 1)

/-- The output at row r. -/
def outFlat (X : S524288x9.Idx → EReal) (W₁ : S9x4.Idx → EReal) (W₂ : S4x16.Idx → EReal) (W₃ : S16x9.Idx → EReal)
    (H S : S524288x16.Idx → EReal) : S524288x9.Idx → EReal :=
  fun j => NodeCell.out (row X (j 0)) (mat W₁) (mat W₂) (mat W₃) (row H (j 0)) (row S (j 0)) (j 1)

/-! ## A stored block is a block of the whole-array function

Stated over any blocks x, h, s whose local row y is global row 2048·t + y of X, H, S, and any weight blocks that are the
weight matrices: the stored value at local index j is the whole-array function at the global index J over it. -/

section Block

variable (X : S524288x9.Idx → EReal) (W₁ : S9x4.Idx → EReal) (W₂ : S4x16.Idx → EReal) (W₃ : S16x9.Idx → EReal)
  (H S : S524288x16.Idx → EReal)
  (x : Vec Ideal S2048x9 .f32) (w₁ : Vec Ideal S9x4 .f32) (w₂ : Vec Ideal S4x16 .f32) (w₃ : Vec Ideal S16x9 .f32)
  (h s : Vec Ideal S2048x16 .f32) (t : Nat)
  (hx : ∀ (y : Fin 2048) (r : Fin 524288), r.val = t * 2048 + y.val → row x y = row X r)
  (hw₁ : mat w₁ = mat W₁) (hw₂ : mat w₂ = mat W₂) (hw₃ : mat w₃ = mat W₃)
  (hh : ∀ (y : Fin 2048) (r : Fin 524288), r.val = t * 2048 + y.val → row h y = row H r)
  (hs : ∀ (y : Fin 2048) (r : Fin 524288), r.val = t * 2048 + y.val → row s y = row S r)

include hx hw₁ hw₂ hh hs in
theorem cell_block (j : S2048x16.Idx) (J : S524288x16.Idx) (hJ0 : (J 0).val = t * 2048 + (j 0).val)
    (hJ1 : (J 1).val = (j 1).val) : k0_pay1 x w₁ w₂ h s j = cellFlat X W₁ W₂ H S J := by
  obtain ⟨y, c, rfl⟩ : ∃ (y : Fin 2048) (c : Fin 16), j = ix2 y c := ⟨j 0, j 1, eq_ix2 j⟩
  rw [KernelRows.cell_apply]
  unfold cellFlat
  rw [hx y (J 0) hJ0, hw₁, hw₂, hh y (J 0) hJ0, hs y (J 0) hJ0]
  exact congrArg _ (Fin.ext hJ1).symm

include hx hw₁ hw₂ hh hs in
theorem hid_block (j : S2048x16.Idx) (J : S524288x16.Idx) (hJ0 : (J 0).val = t * 2048 + (j 0).val)
    (hJ1 : (J 1).val = (j 1).val) : k0_pay2 x w₁ w₂ h s j = hidFlat X W₁ W₂ H S J := by
  obtain ⟨y, c, rfl⟩ : ∃ (y : Fin 2048) (c : Fin 16), j = ix2 y c := ⟨j 0, j 1, eq_ix2 j⟩
  rw [KernelRows.hid_apply]
  unfold hidFlat
  rw [hx y (J 0) hJ0, hw₁, hw₂, hh y (J 0) hJ0, hs y (J 0) hJ0]
  exact congrArg _ (Fin.ext hJ1).symm

include hx hw₁ hw₂ hw₃ hh hs in
theorem out_block (j : S2048x9.Idx) (J : S524288x9.Idx) (hJ0 : (J 0).val = t * 2048 + (j 0).val)
    (hJ1 : (J 1).val = (j 1).val) : k0_pay3 x w₁ w₂ h s w₃ j = outFlat X W₁ W₂ W₃ H S J := by
  obtain ⟨y, o, rfl⟩ : ∃ (y : Fin 2048) (o : Fin 9), j = ix2 y o := ⟨j 0, j 1, eq_ix2 j⟩
  rw [KernelRows.out_apply]
  unfold outFlat
  rw [hx y (J 0) hJ0, hw₁, hw₂, hw₃, hh y (J 0) hJ0, hs y (J 0) hJ0]
  exact congrArg _ (Fin.ext hJ1).symm

end Block

/-! ## The input blocks at a grid point -/

/-- The block indices, decided over the 256 grid points: the row-indexed windows are at block t of the row axis and
    block 0 of the column axis; the weight windows are at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

variable (m : (ℓ : Loc nD τ sig) → Buf (Elt Ideal) ℓ)

/-- Local row y of the input block at point t is global row 2048·t + y of the flattened input array. -/
theorem iblk0_row (c : Dev nD) (t : Fin cfg0.N) (y : Fin 2048) (r : Fin 524288) (hr : r.val = t.val * 2048 + y.val) :
    row (iblk m c 0 t : Vec Ideal S2048x9 .f32) y = row (V m c main_v1 : S524288x9.Idx → EReal) r := by
  obtain ⟨⟨e0, e1⟩, -⟩ := idx_facts t
  funext k
  show (iblk m c 0 t : Vec Ideal S2048x9 .f32) (ix2 y k) = _
  unfold iblk
  rw [View.read_apply]
  show V m c main_v1 _ = V m c main_v1 _
  congr 1
  funext a; apply Fin.ext
  match a with
  | ⟨0, _⟩ => show win0_0.index t (0 : Fin 2) * 2048 + 1 * y.val = r.val; omega
  | ⟨1, _⟩ => show win0_0.index t (1 : Fin 2) * 9 + 1 * k.val = k.val; omega

/-- The same for the hidden-state block. -/
theorem iblk1_row (c : Dev nD) (t : Fin cfg0.N) (y : Fin 2048) (r : Fin 524288) (hr : r.val = t.val * 2048 + y.val) :
    row (iblk m c 1 t : Vec Ideal S2048x16 .f32) y = row (V m c main_v2 : S524288x16.Idx → EReal) r := by
  obtain ⟨-, ⟨e0, e1⟩, -⟩ := idx_facts t
  funext k
  show (iblk m c 1 t : Vec Ideal S2048x16 .f32) (ix2 y k) = _
  unfold iblk
  rw [View.read_apply]
  show V m c main_v2 _ = V m c main_v2 _
  congr 1
  funext a; apply Fin.ext
  match a with
  | ⟨0, _⟩ => show win0_1.index t (0 : Fin 2) * 2048 + 1 * y.val = r.val; omega
  | ⟨1, _⟩ => show win0_1.index t (1 : Fin 2) * 16 + 1 * k.val = k.val; omega

/-- The same for the cell-state block. -/
theorem iblk2_row (c : Dev nD) (t : Fin cfg0.N) (y : Fin 2048) (r : Fin 524288) (hr : r.val = t.val * 2048 + y.val) :
    row (iblk m c 2 t : Vec Ideal S2048x16 .f32) y = row (V m c main_v3 : S524288x16.Idx → EReal) r := by
  obtain ⟨-, -, ⟨e0, e1⟩, -⟩ := idx_facts t
  funext k
  show (iblk m c 2 t : Vec Ideal S2048x16 .f32) (ix2 y k) = _
  unfold iblk
  rw [View.read_apply]
  show V m c main_v3 _ = V m c main_v3 _
  congr 1
  funext a; apply Fin.ext
  match a with
  | ⟨0, _⟩ => show win0_2.index t (0 : Fin 2) * 2048 + 1 * y.val = r.val; omega
  | ⟨1, _⟩ => show win0_2.index t (1 : Fin 2) * 16 + 1 * k.val = k.val; omega

/-- The first weight block at every point is the whole matrix. -/
theorem iblk3_mat (c : Dev nD) (t : Fin cfg0.N) :
    mat (iblk m c 3 t : Vec Ideal S9x4 .f32) = mat (V m c main_arg1 : S9x4.Idx → EReal) := by
  obtain ⟨-, -, -, ⟨e0, e1⟩, -⟩ := idx_facts t
  funext p q
  show (iblk m c 3 t : Vec Ideal S9x4 .f32) (ix2 p q) = _
  unfold iblk
  rw [View.read_apply]
  show V m c main_arg1 _ = V m c main_arg1 _
  congr 1
  funext a; apply Fin.ext
  match a with
  | ⟨0, _⟩ => show win0_3.index t (0 : Fin 2) * 9 + 1 * p.val = p.val; omega
  | ⟨1, _⟩ => show win0_3.index t (1 : Fin 2) * 4 + 1 * q.val = q.val; omega

/-- The second weight block at every point is the whole matrix. -/
theorem iblk4_mat (c : Dev nD) (t : Fin cfg0.N) :
    mat (iblk m c 4 t : Vec Ideal S4x16 .f32) = mat (V m c main_arg2 : S4x16.Idx → EReal) := by
  obtain ⟨-, -, -, -, ⟨e0, e1⟩, -⟩ := idx_facts t
  funext p q
  show (iblk m c 4 t : Vec Ideal S4x16 .f32) (ix2 p q) = _
  unfold iblk
  rw [View.read_apply]
  show V m c main_arg2 _ = V m c main_arg2 _
  congr 1
  funext a; apply Fin.ext
  match a with
  | ⟨0, _⟩ => show win0_4.index t (0 : Fin 2) * 4 + 1 * p.val = p.val; omega
  | ⟨1, _⟩ => show win0_4.index t (1 : Fin 2) * 16 + 1 * q.val = q.val; omega

/-- The third weight block at every point is the whole matrix. -/
theorem iblk5_mat (c : Dev nD) (t : Fin cfg0.N) :
    mat (iblk m c 5 t : Vec Ideal S16x9 .f32) = mat (V m c main_arg3 : S16x9.Idx → EReal) := by
  obtain ⟨-, -, -, -, -, ⟨e0, e1⟩, -⟩ := idx_facts t
  funext p q
  show (iblk m c 5 t : Vec Ideal S16x9 .f32) (ix2 p q) = _
  unfold iblk
  rw [View.read_apply]
  show V m c main_arg3 _ = V m c main_arg3 _
  congr 1
  funext a; apply Fin.ext
  match a with
  | ⟨0, _⟩ => show win0_5.index t (0 : Fin 2) * 16 + 1 * p.val = p.val; omega
  | ⟨1, _⟩ => show win0_5.index t (1 : Fin 2) * 9 + 1 * q.val = q.val; omega

end Cert.KernelBlocks

end
-- ==== Proof.KernelArrays.lean ====
/-
  The three result arrays of the region.

  Each grid point writes back one block of 2048 rows of each result; the 256 blocks tile the 524288 rows, and block t
  is block t of one whole-array function of the arrays the region reads (KernelBlocks). So after the last point each
  result array is that function: row r holds the node update of row r.
-/
import proofs.«150069_j4406636445738_1_alg».proof.Proof.KernelBlocks
import Idealize.ShloMosaic.Lib.Pipeline.Value

set_option maxRecDepth 16384

noncomputable section

namespace Cert.KernelArrays

open Idealize.ShloMosaic Idealize.ShloMosaic.TcCoe Idealize.ShloMosaic.ValueIdx Idealize.SL.Sem
open Idealize.ShloMosaic.Pipeline (Dat)
open Cert.KernelIdeal Cert.KernelIdeal.Gen Cert.KernelBlocks
open Cert.NodeCell (row mat)

variable (m : (ℓ : Loc nD τ sig) → Buf (Elt Ideal) ℓ)

theorem hz : (![0, 0] : Fin 2 → Nat) = fun _ => 0 := funext fun a => by fin_cases a <;> rfl

/-- The cell-state result over the arrays as the region finds them. -/
def cellOf (c : Dev nD) : S524288x16.Idx → EReal :=
  cellFlat (V m c main_v1) (V m c main_arg1) (V m c main_arg2) (V m c main_v2) (V m c main_v3)

/-- The hidden-state result over the arrays as the region finds them. -/
def hidOf (c : Dev nD) : S524288x16.Idx → EReal :=
  hidFlat (V m c main_v1) (V m c main_arg1) (V m c main_arg2) (V m c main_v2) (V m c main_v3)

/-- The output result over the arrays as the region finds them. -/
def outOf (c : Dev nD) : S524288x9.Idx → EReal :=
  outFlat (V m c main_v1) (V m c main_arg1) (V m c main_arg2) (V m c main_arg3) (V m c main_v2) (V m c main_v3)

/-! ## Result window 8: the cell state -/

/-- Point t's write-back of result window 8 is block t of the whole-array function. -/
theorem flushed8_eq (c : Dev nD) (t : Fin cfg0.N) :
    (dats m 0 c).flushed 8 t = ((cfg0.win 8).blk t).view.read (Elt Ideal) (cellOf m c) := by
  show (cfg0.win 8).cut (grid0.coords t) ((dats m 0 c).after 8 t) = _
  rw [after0_8]
  unfold out0_8
  rw [View.canon_unit_zero hz]
  simp only [View.ld_unit_zero (S := S2048x9) hz, View.ld_unit_zero (S := S9x4) hz, View.ld_unit_zero (S := S4x16) hz,
    View.ld_unit_zero (S := S2048x16) hz, View.ld_unit_zero (S := S16x9) hz]
  obtain ⟨-, -, -, -, -, -, f6, f7, f8⟩ := idx_facts t
  funext j
  show k0_pay1 (iblk m c 0 t) (iblk m c 3 t) (iblk m c 4 t) (iblk m c 1 t) (iblk m c 2 t) j = cellOf m c (((cfg0.win 8).blk t).view.emb j)
  unfold cellOf
  refine cell_block _ _ _ _ _ (iblk m c 0 t) (iblk m c 3 t) (iblk m c 4 t) (iblk m c 1 t) (iblk m c 2 t) t.val
    (iblk0_row m c t) (iblk3_mat m c t) (iblk4_mat m c t) (iblk1_row m c t) (iblk2_row m c t) j _ ?_ ?_
  · show win0_8.index t (0 : Fin 2) * 2048 + 1 * (j 0).val = t.val * 2048 + (j 0).val
    have := f8.1; omega
  · show win0_8.index t (1 : Fin 2) * 16 + 1 * (j 1).val = (j 1).val
    have := f8.2; omega

/-- An index of result array 8 is in point t's block iff each coordinate is in the block's range on its axis. -/
theorem mem_blk8 (t : Fin cfg0.N) (i : S524288x16.Idx) :
    i ∈ ((cfg0.win 8).blk t).view.set ↔ ∀ a : Fin 2, win0_8.index t a * S2048x16.size a ≤ (i a).val
      ∧ (i a).val < win0_8.index t a * S2048x16.size a + S2048x16.size a := by
  show i ∈ ((View.whole main_v4_2).slice (win0_8.rect t)).set ↔ _
  rw [View.set_slice_whole, Rect.mem_set_unit]
  exact Iff.rfl

/-- Row r of result array 8 is written back by point r / 2048. -/
theorem cover8 (i : S524288x16.Idx) :
    ∃ t : Fin cfg0.N, (cfg0.win 8).flush t = true ∧ i ∈ ((cfg0.win 8).blk t).view.set := by
  have h0 : (i 0).val < 524288 := (i 0).isLt
  have h1 : (i 1).val < 16 := (i 1).isLt
  have hN : cfg0.N = 256 := N_0
  have ht : (i 0).val / 2048 < cfg0.N := by rw [hN]; omega
  obtain ⟨-, -, -, -, -, -, f6, f7, f8⟩ := idx_facts ⟨(i 0).val / 2048, ht⟩
  refine ⟨⟨(i 0).val / 2048, ht⟩, flush0_8 _, ?_⟩
  rw [mem_blk8]
  intro a
  match a with
  | ⟨0, _⟩ =>
    show win0_8.index ⟨(i 0).val / 2048, ht⟩ (0 : Fin 2) * 2048 ≤ (i 0).val
      ∧ (i 0).val < win0_8.index ⟨(i 0).val / 2048, ht⟩ (0 : Fin 2) * 2048 + 2048
    have e := f8.1
    have e' : (⟨(i 0).val / 2048, ht⟩ : Fin cfg0.N).val = (i 0).val / 2048 := rfl
    omega
  | ⟨1, _⟩ =>
    show win0_8.index ⟨(i 0).val / 2048, ht⟩ (1 : Fin 2) * 16 ≤ (i 1).val
      ∧ (i 1).val < win0_8.index ⟨(i 0).val / 2048, ht⟩ (1 : Fin 2) * 16 + 16
    have e := f8.2
    omega

/-- So result array 8 ends holding the whole-array function. -/
theorem final8 (c : Dev nD) : (dats m 0 c).arrAt 8 cfg0.N = cellOf m c :=
  (dats m 0 c).arrAt_eq_of_cover 8 (cellOf m c) (fun t _ => flushed8_eq m c t) cover8

/-! ## Result window 7: the hidden state -/

/-- Point t's write-back of result window 7 is block t of the whole-array function. -/
theorem flushed7_eq (c : Dev nD) (t : Fin cfg0.N) :
    (dats m 0 c).flushed 7 t = ((cfg0.win 7).blk t).view.read (Elt Ideal) (hidOf m c) := by
  show (cfg0.win 7).cut (grid0.coords t) ((dats m 0 c).after 7 t) = _
  rw [after0_7]
  unfold out0_7
  rw [View.canon_unit_zero hz]
  simp only [View.ld_unit_zero (S := S2048x9) hz, View.ld_unit_zero (S := S9x4) hz, View.ld_unit_zero (S := S4x16) hz,
    View.ld_unit_zero (S := S2048x16) hz, View.ld_unit_zero (S := S16x9) hz]
  obtain ⟨-, -, -, -, -, -, f6, f7, f8⟩ := idx_facts t
  funext j
  show k0_pay2 (iblk m c 0 t) (iblk m c 3 t) (iblk m c 4 t) (iblk m c 1 t) (iblk m c 2 t) j = hidOf m c (((cfg0.win 7).blk t).view.emb j)
  unfold hidOf
  refine hid_block _ _ _ _ _ (iblk m c 0 t) (iblk m c 3 t) (iblk m c 4 t) (iblk m c 1 t) (iblk m c 2 t) t.val
    (iblk0_row m c t) (iblk3_mat m c t) (iblk4_mat m c t) (iblk1_row m c t) (iblk2_row m c t) j _ ?_ ?_
  · show win0_7.index t (0 : Fin 2) * 2048 + 1 * (j 0).val = t.val * 2048 + (j 0).val
    have := f7.1; omega
  · show win0_7.index t (1 : Fin 2) * 16 + 1 * (j 1).val = (j 1).val
    have := f7.2; omega

/-- An index of result array 7 is in point t's block iff each coordinate is in the block's range on its axis. -/
theorem mem_blk7 (t : Fin cfg0.N) (i : S524288x16.Idx) :
    i ∈ ((cfg0.win 7).blk t).view.set ↔ ∀ a : Fin 2, win0_7.index t a * S2048x16.size a ≤ (i a).val
      ∧ (i a).val < win0_7.index t a * S2048x16.size a + S2048x16.size a := by
  show i ∈ ((View.whole main_v4_1).slice (win0_7.rect t)).set ↔ _
  rw [View.set_slice_whole, Rect.mem_set_unit]
  exact Iff.rfl

/-- Row r of result array 7 is written back by point r / 2048. -/
theorem cover7 (i : S524288x16.Idx) :
    ∃ t : Fin cfg0.N, (cfg0.win 7).flush t = true ∧ i ∈ ((cfg0.win 7).blk t).view.set := by
  have h0 : (i 0).val < 524288 := (i 0).isLt
  have h1 : (i 1).val < 16 := (i 1).isLt
  have hN : cfg0.N = 256 := N_0
  have ht : (i 0).val / 2048 < cfg0.N := by rw [hN]; omega
  obtain ⟨-, -, -, -, -, -, f6, f7, f8⟩ := idx_facts ⟨(i 0).val / 2048, ht⟩
  refine ⟨⟨(i 0).val / 2048, ht⟩, flush0_7 _, ?_⟩
  rw [mem_blk7]
  intro a
  match a with
  | ⟨0, _⟩ =>
    show win0_7.index ⟨(i 0).val / 2048, ht⟩ (0 : Fin 2) * 2048 ≤ (i 0).val
      ∧ (i 0).val < win0_7.index ⟨(i 0).val / 2048, ht⟩ (0 : Fin 2) * 2048 + 2048
    have e := f7.1
    have e' : (⟨(i 0).val / 2048, ht⟩ : Fin cfg0.N).val = (i 0).val / 2048 := rfl
    omega
  | ⟨1, _⟩ =>
    show win0_7.index ⟨(i 0).val / 2048, ht⟩ (1 : Fin 2) * 16 ≤ (i 1).val
      ∧ (i 1).val < win0_7.index ⟨(i 0).val / 2048, ht⟩ (1 : Fin 2) * 16 + 16
    have e := f7.2
    omega

/-- So result array 7 ends holding the whole-array function. -/
theorem final7 (c : Dev nD) : (dats m 0 c).arrAt 7 cfg0.N = hidOf m c :=
  (dats m 0 c).arrAt_eq_of_cover 7 (hidOf m c) (fun t _ => flushed7_eq m c t) cover7

/-! ## Result window 6: the output -/

/-- Point t's write-back of result window 6 is block t of the whole-array function. -/
theorem flushed6_eq (c : Dev nD) (t : Fin cfg0.N) :
    (dats m 0 c).flushed 6 t = ((cfg0.win 6).blk t).view.read (Elt Ideal) (outOf m c) := by
  show (cfg0.win 6).cut (grid0.coords t) ((dats m 0 c).after 6 t) = _
  rw [after0_6]
  unfold out0_6
  rw [View.canon_unit_zero hz]
  simp only [View.ld_unit_zero (S := S2048x9) hz, View.ld_unit_zero (S := S9x4) hz, View.ld_unit_zero (S := S4x16) hz,
    View.ld_unit_zero (S := S2048x16) hz, View.ld_unit_zero (S := S16x9) hz]
  obtain ⟨-, -, -, -, -, -, f6, f7, f8⟩ := idx_facts t
  funext j
  show k0_pay3 (iblk m c 0 t) (iblk m c 3 t) (iblk m c 4 t) (iblk m c 1 t) (iblk m c 2 t) (iblk m c 5 t) j
    = outOf m c (((cfg0.win 6).blk t).view.emb j)
  unfold outOf
  refine out_block _ _ _ _ _ _ (iblk m c 0 t) (iblk m c 3 t) (iblk m c 4 t) (iblk m c 5 t) (iblk m c 1 t) (iblk m c 2 t) t.val
    (iblk0_row m c t) (iblk3_mat m c t) (iblk4_mat m c t) (iblk5_mat m c t) (iblk1_row m c t) (iblk2_row m c t) j _ ?_ ?_
  · show win0_6.index t (0 : Fin 2) * 2048 + 1 * (j 0).val = t.val * 2048 + (j 0).val
    have := f6.1; omega
  · show win0_6.index t (1 : Fin 2) * 9 + 1 * (j 1).val = (j 1).val
    have := f6.2; omega

/-- An index of result array 6 is in point t's block iff each coordinate is in the block's range on its axis. -/
theorem mem_blk6 (t : Fin cfg0.N) (i : S524288x9.Idx) :
    i ∈ ((cfg0.win 6).blk t).view.set ↔ ∀ a : Fin 2, win0_6.index t a * S2048x9.size a ≤ (i a).val
      ∧ (i a).val < win0_6.index t a * S2048x9.size a + S2048x9.size a := by
  show i ∈ ((View.whole main_v4_0).slice (win0_6.rect t)).set ↔ _
  rw [View.set_slice_whole, Rect.mem_set_unit]
  exact Iff.rfl

/-- Row r of result array 6 is written back by point r / 2048. -/
theorem cover6 (i : S524288x9.Idx) :
    ∃ t : Fin cfg0.N, (cfg0.win 6).flush t = true ∧ i ∈ ((cfg0.win 6).blk t).view.set := by
  have h0 : (i 0).val < 524288 := (i 0).isLt
  have h1 : (i 1).val < 9 := (i 1).isLt
  have hN : cfg0.N = 256 := N_0
  have ht : (i 0).val / 2048 < cfg0.N := by rw [hN]; omega
  obtain ⟨-, -, -, -, -, -, f6, f7, f8⟩ := idx_facts ⟨(i 0).val / 2048, ht⟩
  refine ⟨⟨(i 0).val / 2048, ht⟩, flush0_6 _, ?_⟩
  rw [mem_blk6]
  intro a
  match a with
  | ⟨0, _⟩ =>
    show win0_6.index ⟨(i 0).val / 2048, ht⟩ (0 : Fin 2) * 2048 ≤ (i 0).val
      ∧ (i 0).val < win0_6.index ⟨(i 0).val / 2048, ht⟩ (0 : Fin 2) * 2048 + 2048
    have e := f6.1
    have e' : (⟨(i 0).val / 2048, ht⟩ : Fin cfg0.N).val = (i 0).val / 2048 := rfl
    omega
  | ⟨1, _⟩ =>
    show win0_6.index ⟨(i 0).val / 2048, ht⟩ (1 : Fin 2) * 9 ≤ (i 1).val
      ∧ (i 1).val < win0_6.index ⟨(i 0).val / 2048, ht⟩ (1 : Fin 2) * 9 + 9
    have e := f6.2
    omega

/-- So result array 6 ends holding the whole-array function. -/
theorem final6 (c : Dev nD) : (dats m 0 c).arrAt 6 cfg0.N = outOf m c :=
  (dats m 0 c).arrAt_eq_of_cover 6 (outOf m c) (fun t _ => flushed6_eq m c t) cover6

end Cert.KernelArrays

end
-- ==== Proof.KernelRun.lean ====
/-
  The kernel's run, read: the three results are the specification's arrays.

  Around the region the program only re-lays arrays: before it, the input's trailing unit axis is dropped and the two
  node axes of the input and of both state arrays are flattened into one of 524288 rows; after it, the row axis of each
  result is split back into the two node axes. A reshape keeps the row-major position, so row 4096·b + n of a flattened
  array is node (b, n) of the original, and entry (b, n, k) of a result is row 4096·b + n, column k of the region's
  result array — which is the node update of that row (KernelArrays). Hence each result is NodeCell's array of the
  argument arrays.
-/
import proofs.«150069_j4406636445738_1_alg».proof.Proof.KernelArrays
import Idealize.ShloMosaic.Lib.StableHlo.Run

set_option maxRecDepth 16384

noncomputable section

namespace Cert.KernelRun

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen Cert.KernelBlocks Cert.KernelArrays
open Cert.NodeCell (row mat xAt sAt)

variable (m : (ℓ : Loc nD τ sig) → Buf (Elt Ideal) ℓ) (ρ : Dev nD → PrngReg)

/-! ## The arrays the region finds -/

/-- The flattened input: the argument with its unit axis dropped, then its node axes merged. -/
theorem V_main_v1 (c : Dev nD) : (V m c main_v1 : S524288x9.Idx → EReal)
    = shapeCast S524288x9 (shapeCast S128x4096x9 (m ((c : Thread nD τ).loc main_arg0)) shapeCasts_S128x4096x9x1_S128x4096x9)
        shapeCasts_S128x4096x9_S524288x9 := by
  show StableHlo.after hostOps0 (fun b => m (c, b)) (Proc.devRef .tc main_v1) = _
  after_results
  rfl

/-- The flattened hidden state. -/
theorem V_main_v2 (c : Dev nD) : (V m c main_v2 : S524288x16.Idx → EReal)
    = shapeCast S524288x16 (m ((c : Thread nD τ).loc main_arg4)) shapeCasts_S128x4096x16_S524288x16 := by
  show StableHlo.after hostOps0 (fun b => m (c, b)) (Proc.devRef .tc main_v2) = _
  after_results
  rfl

/-- The flattened cell state. -/
theorem V_main_v3 (c : Dev nD) : (V m c main_v3 : S524288x16.Idx → EReal)
    = shapeCast S524288x16 (m ((c : Thread nD τ).loc main_arg5)) shapeCasts_S128x4096x16_S524288x16 := by
  show StableHlo.after hostOps0 (fun b => m (c, b)) (Proc.devRef .tc main_v3) = _
  after_results
  rfl

/-- Row 4096·b + n of the flattened input is node (b, n)'s input vector. -/
theorem flatX_row (A : S128x4096x9x1.Idx → EReal) (b : Fin 128) (n : Fin 4096) (r : Fin 524288)
    (hr : r.val = b.val * 4096 + n.val) :
    row (shapeCast S524288x9 (shapeCast S128x4096x9 A shapeCasts_S128x4096x9x1_S128x4096x9)
      shapeCasts_S128x4096x9_S524288x9) r = xAt A b n := by
  funext i
  show shapeCast S524288x9 _ shapeCasts_S128x4096x9_S524288x9 (ix2 r i) = A (ix4 b n i 0)
  rw [shapeCast_apply _ shapeCasts_S128x4096x9_S524288x9 (ix2 r i) (ix3 b n i) (by
        rewrite [Shape.rowMajor_val_three, Shape.rowMajor_val_two]
        show (b.val * 4096 + n.val) * 9 + i.val = r.val * 9 + i.val
        rw [hr]),
    shapeCast_apply _ shapeCasts_S128x4096x9x1_S128x4096x9 (ix3 b n i) (ix4 b n i 0) (by
        rewrite [Shape.rowMajor_val_four, Shape.rowMajor_val_three]
        show ((b.val * 4096 + n.val) * 9 + i.val) * 1 + 0 = (b.val * 4096 + n.val) * 9 + i.val
        omega)]

/-- Row 4096·b + n of a flattened state array is node (b, n)'s state vector. -/
theorem flatS_row (A : S128x4096x16.Idx → EReal) (b : Fin 128) (n : Fin 4096) (r : Fin 524288)
    (hr : r.val = b.val * 4096 + n.val) :
    row (shapeCast S524288x16 A shapeCasts_S128x4096x16_S524288x16) r = sAt A b n := by
  funext k
  show shapeCast S524288x16 A shapeCasts_S128x4096x16_S524288x16 (ix2 r k) = A (ix3 b n k)
  rw [shapeCast_apply _ shapeCasts_S128x4096x16_S524288x16 (ix2 r k) (ix3 b n k) (by
        rewrite [Shape.rowMajor_val_three, Shape.rowMajor_val_two]
        show (b.val * 4096 + n.val) * 16 + k.val = r.val * 16 + k.val
        rw [hr])]

/-! ## The results after the region -/

/-- The cell-state result: the region's third result array with its row axis split. -/
theorem tail_cell (c : Dev nD) : Pipeline.afterTail₀ cfgs (dats m) 0 (V0 m) [hostOps1] c main_v7
    = shapeCast S128x4096x16 ((dats m 0 c).arrAt 8 cfg0.N) shapeCasts_S524288x16_S128x4096x16 := by
  unfold Pipeline.afterTail₀
  show StableHlo.after hostOps1 _ (Proc.devRef .tc main_v7) = _
  after_results
  exact congrArg (fun a => shapeCast S128x4096x16 a shapeCasts_S524288x16_S128x4096x16)
    (Pipeline.withArrays_arr spec0 launch0.win.arr_inj c (V0 m c) (fun w => (dats m 0 c).arrAt w cfg0.N) 8)

/-- The hidden-state result: the region's second result array with its row axis split. -/
theorem tail_hid (c : Dev nD) : Pipeline.afterTail₀ cfgs (dats m) 0 (V0 m) [hostOps1] c main_v6
    = shapeCast S128x4096x16 ((dats m 0 c).arrAt 7 cfg0.N) shapeCasts_S524288x16_S128x4096x16 := by
  unfold Pipeline.afterTail₀
  show StableHlo.after hostOps1 _ (Proc.devRef .tc main_v6) = _
  after_results
  exact congrArg (fun a => shapeCast S128x4096x16 a shapeCasts_S524288x16_S128x4096x16)
    (Pipeline.withArrays_arr spec0 launch0.win.arr_inj c (V0 m c) (fun w => (dats m 0 c).arrAt w cfg0.N) 7)

/-- The output result: the region's first result array with its row axis split. -/
theorem tail_out (c : Dev nD) : Pipeline.afterTail₀ cfgs (dats m) 0 (V0 m) [hostOps1] c main_v5
    = shapeCast S128x4096x9 ((dats m 0 c).arrAt 6 cfg0.N) shapeCasts_S524288x9_S128x4096x9 := by
  unfold Pipeline.afterTail₀
  show StableHlo.after hostOps1 _ (Proc.devRef .tc main_v5) = _
  after_results
  exact congrArg (fun a => shapeCast S128x4096x9 a shapeCasts_S524288x9_S128x4096x9)
    (Pipeline.withArrays_arr spec0 launch0.win.arr_inj c (V0 m c) (fun w => (dats m 0 c).arrAt w cfg0.N) 6)

/-- Entry (b, n, k) of the split cell-state array is the node update of node (b, n). -/
theorem cell_result (c : Dev nD) :
    shapeCast S128x4096x16 (cellOf m c) shapeCasts_S524288x16_S128x4096x16
      = NodeCell.cellArr (m ((c : Thread nD τ).loc main_arg0)) (m ((c : Thread nD τ).loc main_arg1)) (m ((c : Thread nD τ).loc main_arg2)) (m ((c : Thread nD τ).loc main_arg4)) (m ((c : Thread nD τ).loc main_arg5)) := by
  funext j
  obtain ⟨b, n, k, rfl⟩ : ∃ (b : Fin 128) (n : Fin 4096) (k : Fin 16), j = ix3 b n k := ⟨j 0, j 1, j 2, eq_ix3 j⟩
  have hr : b.val * 4096 + n.val < 524288 := by have := b.isLt; have := n.isLt; omega
  rw [shapeCast_apply _ shapeCasts_S524288x16_S128x4096x16 (ix3 b n k) (ix2 ⟨b.val * 4096 + n.val, hr⟩ k) (by
        rewrite [Shape.rowMajor_val_two, Shape.rowMajor_val_three]
        show (b.val * 4096 + n.val) * 16 + k.val = (b.val * 4096 + n.val) * 16 + k.val
        rfl)]
  unfold cellOf cellFlat NodeCell.cellArr
  rw [V_main_v1, V_main_v2, V_main_v3, V_main_arg1, V_main_arg2]
  show NodeCell.cell (row _ ⟨b.val * 4096 + n.val, hr⟩) _ _ (row _ ⟨b.val * 4096 + n.val, hr⟩)
    (row _ ⟨b.val * 4096 + n.val, hr⟩) k = _
  rw [flatX_row _ b n ⟨b.val * 4096 + n.val, hr⟩ rfl, flatS_row _ b n ⟨b.val * 4096 + n.val, hr⟩ rfl,
    flatS_row _ b n ⟨b.val * 4096 + n.val, hr⟩ rfl]

/-- Entry (b, n, k) of the split hidden-state array is the new hidden state of node (b, n). -/
theorem hid_result (c : Dev nD) :
    shapeCast S128x4096x16 (hidOf m c) shapeCasts_S524288x16_S128x4096x16
      = NodeCell.hidArr (m ((c : Thread nD τ).loc main_arg0)) (m ((c : Thread nD τ).loc main_arg1)) (m ((c : Thread nD τ).loc main_arg2)) (m ((c : Thread nD τ).loc main_arg4)) (m ((c : Thread nD τ).loc main_arg5)) := by
  funext j
  obtain ⟨b, n, k, rfl⟩ : ∃ (b : Fin 128) (n : Fin 4096) (k : Fin 16), j = ix3 b n k := ⟨j 0, j 1, j 2, eq_ix3 j⟩
  have hr : b.val * 4096 + n.val < 524288 := by have := b.isLt; have := n.isLt; omega
  rw [shapeCast_apply _ shapeCasts_S524288x16_S128x4096x16 (ix3 b n k) (ix2 ⟨b.val * 4096 + n.val, hr⟩ k) (by
        rewrite [Shape.rowMajor_val_two, Shape.rowMajor_val_three]
        show (b.val * 4096 + n.val) * 16 + k.val = (b.val * 4096 + n.val) * 16 + k.val
        rfl)]
  unfold hidOf hidFlat NodeCell.hidArr
  rw [V_main_v1, V_main_v2, V_main_v3, V_main_arg1, V_main_arg2]
  show NodeCell.hid (row _ ⟨b.val * 4096 + n.val, hr⟩) _ _ (row _ ⟨b.val * 4096 + n.val, hr⟩)
    (row _ ⟨b.val * 4096 + n.val, hr⟩) k = _
  rw [flatX_row _ b n ⟨b.val * 4096 + n.val, hr⟩ rfl, flatS_row _ b n ⟨b.val * 4096 + n.val, hr⟩ rfl,
    flatS_row _ b n ⟨b.val * 4096 + n.val, hr⟩ rfl]

/-- Entry (b, n, o) of the split output array is the output of node (b, n). -/
theorem out_result (c : Dev nD) :
    shapeCast S128x4096x9 (outOf m c) shapeCasts_S524288x9_S128x4096x9
      = NodeCell.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext j
  obtain ⟨b, n, o, rfl⟩ : ∃ (b : Fin 128) (n : Fin 4096) (o : Fin 9), j = ix3 b n o := ⟨j 0, j 1, j 2, eq_ix3 j⟩
  have hr : b.val * 4096 + n.val < 524288 := by have := b.isLt; have := n.isLt; omega
  rw [shapeCast_apply _ shapeCasts_S524288x9_S128x4096x9 (ix3 b n o) (ix2 ⟨b.val * 4096 + n.val, hr⟩ o) (by
        rewrite [Shape.rowMajor_val_two, Shape.rowMajor_val_three]
        show (b.val * 4096 + n.val) * 9 + o.val = (b.val * 4096 + n.val) * 9 + o.val
        rfl)]
  unfold outOf outFlat NodeCell.outArr
  rw [V_main_v1, V_main_v2, V_main_v3, V_main_arg1, V_main_arg2, V_main_arg3]
  show NodeCell.out (row _ ⟨b.val * 4096 + n.val, hr⟩) _ _ _ (row _ ⟨b.val * 4096 + n.val, hr⟩)
    (row _ ⟨b.val * 4096 + n.val, hr⟩) o = _
  rw [flatX_row _ b n ⟨b.val * 4096 + n.val, hr⟩ rfl, flatS_row _ b n ⟨b.val * 4096 + n.val, hr⟩ rfl,
    flatS_row _ b n ⟨b.val * 4096 + n.val, hr⟩ rfl]

/-! ## The run -/

/-- Every weakly fair execution of the kernel program terminates with its three results at the specification's arrays
    of the argument arrays, and the argument arrays unchanged. -/
theorem run : θ_run defs (onTc (τ := τ) (main (F := Ideal))) ⟨m, fun _ => 0, ρ⟩ fun r => ∀ c : Dev nD,
      r.2.mem ((c : Thread nD τ).loc main_v5)
        = NodeCell.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v6)
        = NodeCell.hidArr (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c : Thread nD τ).loc main_v7)
        = NodeCell.cellArr (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v5 (Pipeline.mem_restRefs_of main_v5 (by decide) (by decide))).trans
        ((tail_out m c).trans ((congrArg (fun a => shapeCast S128x4096x9 a shapeCasts_S524288x9_S128x4096x9)
          (final6 m c)).trans (out_result m c))),
      ((h c).2 main_v6 (Pipeline.mem_restRefs_of main_v6 (by decide) (by decide))).trans
        ((tail_hid m c).trans ((congrArg (fun a => shapeCast S128x4096x16 a shapeCasts_S524288x16_S128x4096x16)
          (final7 m c)).trans (hid_result m c))),
      ((h c).2 main_v7 (Pipeline.mem_restRefs_of main_v7 (by decide) (by decide))).trans
        ((tail_cell m c).trans ((congrArg (fun a => shapeCast S128x4096x16 a shapeCasts_S524288x16_S128x4096x16)
          (final8 m c)).trans (cell_result m c))),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelRun

end
-- ==== Proof.RefRows.lean ====
/-
  The reference computes the node update.

  The reference works on the arrays as given: it drops the input's trailing unit axis, contracts the last axis of
  the [128, 4096, ·] arrays against the weight matrices, and spells σ z as 1 / (1 + e^(−z)) with its own constants.
  Read at node (b, n), each of its three results is NodeCell's cell, hid and out of that node's vectors: the
  contractions are the sums over the contracted coordinate, the constant 1.0 is the real one, and the quotient is σ.
-/
import proofs.«150069_j4406636445738_1_alg».proof.Proof.Gen.ReferenceIdeal.Read
import proofs.«150069_j4406636445738_1_alg».proof.Proof.NodeCell
import Idealize.ShloMosaic.Lib.IdealHost

noncomputable section

namespace Cert.RefRows

open Idealize.ShloMosaic Idealize.ShloMosaic.ValueIdx
open Cert.ReferenceIdeal Cert.ReferenceIdeal.Read
open Cert.NodeCell (row mat xAt sAt)

/-! ## The indices the reference reads -/

/-- Dropping the trailing unit axis: entry (b, n, i) comes from (b, n, i, 0). -/
theorem idx_drop (b : Fin 128) (n : Fin 4096) (i : Fin 9) : idx_main_v0 (ix3 b n i) = ix4 b n i 0 :=
  funext fun a => Fin.ext (by
    have hb := b.isLt; have hn := n.isLt; have hi := i.isLt
    match a with
    | ⟨0, _⟩ => show ((b.val * 4096 + n.val) * 9 + i.val) / 36864 = b.val; omega
    | ⟨1, _⟩ => show ((b.val * 4096 + n.val) * 9 + i.val) / 9 % 4096 = n.val; omega
    | ⟨2, _⟩ => show ((b.val * 4096 + n.val) * 9 + i.val) / 1 % 9 = i.val; omega
    | ⟨3, _⟩ => rfl)

theorem lidx_pre (b : Fin 128) (n : Fin 4096) (p : Fin 4) (k : Fin 9) : lidx_main_v1 (ix3 b n p) k = ix3 b n k :=
  funext fun a => Fin.ext (by match a with | ⟨0, _⟩ => rfl | ⟨1, _⟩ => rfl | ⟨2, _⟩ => rfl)
theorem ridx_pre (b : Fin 128) (n : Fin 4096) (p : Fin 4) (k : Fin 9) : ridx_main_v1 (ix3 b n p) k = ix2 k p :=
  funext fun a => Fin.ext (by match a with | ⟨0, _⟩ => rfl | ⟨1, _⟩ => rfl)
theorem lidx_net (b : Fin 128) (n : Fin 4096) (c : Fin 16) (k : Fin 4) : lidx_main_v3 (ix3 b n c) k = ix3 b n k :=
  funext fun a => Fin.ext (by match a with | ⟨0, _⟩ => rfl | ⟨1, _⟩ => rfl | ⟨2, _⟩ => rfl)
theorem ridx_net (b : Fin 128) (n : Fin 4096) (c : Fin 16) (k : Fin 4) : ridx_main_v3 (ix3 b n c) k = ix2 k c :=
  funext fun a => Fin.ext (by match a with | ⟨0, _⟩ => rfl | ⟨1, _⟩ => rfl)
theorem lidx_out (b : Fin 128) (n : Fin 4096) (o : Fin 9) (k : Fin 16) : lidx_main_v18 (ix3 b n o) k = ix3 b n k :=
  funext fun a => Fin.ext (by match a with | ⟨0, _⟩ => rfl | ⟨1, _⟩ => rfl | ⟨2, _⟩ => rfl)
theorem ridx_out (b : Fin 128) (n : Fin 4096) (o : Fin 9) (k : Fin 16) : ridx_main_v18 (ix3 b n o) k = ix2 k o :=
  funext fun a => Fin.ext (by match a with | ⟨0, _⟩ => rfl | ⟨1, _⟩ => rfl)

/-! ## The stages at a node -/

variable (A0 : (⟨S128x4096x9x1, .f32⟩ : BufTy).Contents (Elt Ideal)) (A1 : (⟨S9x4, .f32⟩ : BufTy).Contents (Elt Ideal))
  (A2 : (⟨S4x16, .f32⟩ : BufTy).Contents (Elt Ideal)) (A3 : (⟨S16x9, .f32⟩ : BufTy).Contents (Elt Ideal))
  (A4 A5 : (⟨S128x4096x16, .f32⟩ : BufTy).Contents (Elt Ideal))

/-- The pre-layer stage at node (b, n), column p. -/
theorem pre_apply (b : Fin 128) (n : Fin 4096) (p : Fin 4) :
    val_main_v2 (F := Ideal) A0 A1 (ix3 b n p) = NodeCell.pre (xAt A0 b n) (mat A1) p := by
  rw [val_main_v2_apply, val_main_v1_apply]
  simp only [lidx_pre, ridx_pre, val_main_v0_apply, idx_drop]
  rfl

/-- The gate-argument stage at node (b, n), column c. -/
theorem net_apply (b : Fin 128) (n : Fin 4096) (c : Fin 16) :
    val_main_v4 (F := Ideal) A0 A1 A2 A4 (ix3 b n c) = NodeCell.net (xAt A0 b n) (mat A1) (mat A2) (sAt A4 b n) c := by
  rw [val_main_v4_apply, val_main_v3_apply]
  simp only [lidx_net, ridx_net, pre_apply]
  rfl

/-- The reference's quotient 1 / (1 + e^(−z)) at node (b, n), column c, is σ of the gate argument. -/
theorem gate_apply (b : Fin 128) (n : Fin 4096) (c : Fin 16) :
    val_main_v10 (F := Ideal) A0 A1 A2 A4 (ix3 b n c)
      = Ideal.logistic (NodeCell.net (xAt A0 b n) (mat A1) (mat A2) (sAt A4 b n) c) := by
  rw [val_main_v10_apply, val_main_v9_apply, val_main_cst_0_apply, val_main_v8_apply, val_main_v7_apply,
    val_main_cst_apply, val_main_v6_apply, val_main_v5_apply, net_apply]
  show Ideal.div (Ideal.ofBits .f32 0x3F800000#32) (Ideal.ofBits .f32 0x3F800000#32 + Ideal.exp (-_)) = _
  rw [Ideal.ofBits_one_f32]
  rfl

/-- The new cell state at node (b, n), column c. -/
theorem cell_apply (b : Fin 128) (n : Fin 4096) (c : Fin 16) :
    val_main_v16 (F := Ideal) A0 A1 A2 A4 A5 (ix3 b n c)
      = NodeCell.cell (xAt A0 b n) (mat A1) (mat A2) (sAt A4 b n) (sAt A5 b n) c := by
  rw [val_main_v16_apply, val_main_v14_apply, val_main_v13_apply, val_main_v12_apply, val_main_cst_1_apply,
    val_main_v15_apply, val_main_v11_apply, gate_apply, net_apply]
  show (Ideal.ofBits .f32 0x3F800000#32 - _) * _ + _ * Ideal.tanh _ = _
  rw [Ideal.ofBits_one_f32]
  rfl

/-- The new hidden state at node (b, n), column c. -/
theorem hid_apply (b : Fin 128) (n : Fin 4096) (c : Fin 16) :
    val_main_v17 (F := Ideal) A0 A1 A2 A4 A5 (ix3 b n c)
      = NodeCell.hid (xAt A0 b n) (mat A1) (mat A2) (sAt A4 b n) (sAt A5 b n) c := by
  rw [val_main_v17_apply, cell_apply]
  rfl

/-- The output at node (b, n), column o. -/
theorem out_apply (b : Fin 128) (n : Fin 4096) (o : Fin 9) :
    val_main_v19 (F := Ideal) A0 A1 A2 A3 A4 A5 (ix3 b n o)
      = NodeCell.out (xAt A0 b n) (mat A1) (mat A2) (mat A3) (sAt A4 b n) (sAt A5 b n) o := by
  rw [val_main_v19_apply, val_main_v18_apply]
  simp only [lidx_out, ridx_out, hid_apply]
  rfl

/-! ## The three results are the specification's arrays -/

theorem cell_eq : val_main_v16 (F := Ideal) A0 A1 A2 A4 A5 = NodeCell.cellArr A0 A1 A2 A4 A5 := by
  funext j
  obtain ⟨b, n, c, rfl⟩ : ∃ (b : Fin 128) (n : Fin 4096) (c : Fin 16), j = ix3 b n c := ⟨j 0, j 1, j 2, eq_ix3 j⟩
  exact cell_apply A0 A1 A2 A4 A5 b n c

theorem hid_eq : val_main_v17 (F := Ideal) A0 A1 A2 A4 A5 = NodeCell.hidArr A0 A1 A2 A4 A5 := by
  funext j
  obtain ⟨b, n, c, rfl⟩ : ∃ (b : Fin 128) (n : Fin 4096) (c : Fin 16), j = ix3 b n c := ⟨j 0, j 1, j 2, eq_ix3 j⟩
  exact hid_apply A0 A1 A2 A4 A5 b n c

theorem out_eq : val_main_v19 (F := Ideal) A0 A1 A2 A3 A4 A5 = NodeCell.outArr A0 A1 A2 A3 A4 A5 := by
  funext j
  obtain ⟨b, n, o, rfl⟩ : ∃ (b : Fin 128) (n : Fin 4096) (o : Fin 9), j = ix3 b n o := ⟨j 0, j 1, j 2, eq_ix3 j⟩
  exact out_apply A0 A1 A2 A3 A4 A5 b n o

end Cert.RefRows

end
-- ==== Proof.lean ====
/-
  The kernel and its reference compute the same node update.

  Both programs take a 128 × 4096 grid of nodes. Node (b, n) carries an input 9-vector, a hidden 16-vector and a cell
  16-vector, and the three weight matrices are shared. The update (Proof/NodeCell.lean) is a tanh pre-layer, a gate
  argument net = pre · W₂ + h, the coupled gate cell = (1 − σ net) · s + σ net · tanh net, the new hidden state
  tanh cell, and a tanh post-layer; the results are the arrays of out, hid and cell over all nodes.

  The reference contracts the last axis of the arrays as given and spells σ as 1 / (1 + e^(−z)); read at a node its
  three results are the update's (Proof/RefRows.lean, over the generated reading of its run). The kernel flattens the
  two node axes into 524288 rows, handles 2048 rows per grid point with the matrix unit's products into zero
  accumulators, and splits the row axis back; a stored block at local row y is the update of global row 2048·t + y
  (Proof/KernelRows.lean, Proof/KernelBlocks.lean), the 256 blocks tile each result (Proof/KernelArrays.lean), and a
  reshape keeps row-major positions, so entry (b, n, ·) of each result is the update of node (b, n)
  (Proof/KernelRun.lean). On the extended reals a change of float format is the identity, a product into zeros and the
  host's contraction are the same finite sum, and the kernel's σ is the reference's quotient, so the two sides are the
  same term of the argument arrays: no law of arithmetic is used, and the inputs' finiteness is never opened.

  The kernel's idealization rewrote nothing, so it is the printed program read on the extended reals. The three frames
  are the generated ones (the reference's is its generated run with the results dropped).
-/
import proofs.«150069_j4406636445738_1_alg».proof.Defs
import proofs.«150069_j4406636445738_1_alg».proof.Proof.Gen.Kernel
import proofs.«150069_j4406636445738_1_alg».proof.Proof.Gen.Kernel.Skeleton
import proofs.«150069_j4406636445738_1_alg».proof.Proof.Gen.Kernel.Launch
import proofs.«150069_j4406636445738_1_alg».proof.Proof.Gen.Kernel.Points
import proofs.«150069_j4406636445738_1_alg».proof.Proof.Gen.Kernel.Frame
import proofs.«150069_j4406636445738_1_alg».proof.Proof.Gen.KernelIdeal
import proofs.«150069_j4406636445738_1_alg».proof.Proof.Gen.KernelIdeal.Skeleton
import proofs.«150069_j4406636445738_1_alg».proof.Proof.Gen.KernelIdeal.Launch
import proofs.«150069_j4406636445738_1_alg».proof.Proof.Gen.KernelIdeal.Points
import proofs.«150069_j4406636445738_1_alg».proof.Proof.Gen.KernelIdeal.Frame
import proofs.«150069_j4406636445738_1_alg».proof.Proof.Gen.ReferenceIdeal
import proofs.«150069_j4406636445738_1_alg».proof.Proof.Gen.Pre_finite_inputs
import proofs.«150069_j4406636445738_1_alg».proof.Proof.Gen.ReferenceIdeal.Run
import proofs.«150069_j4406636445738_1_alg».proof.Proof.Gen.ReferenceIdeal.Read
import proofs.«150069_j4406636445738_1_alg».proof.Proof.KernelRun
import proofs.«150069_j4406636445738_1_alg».proof.Proof.RefRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both programs end with the specification's three arrays of the argument arrays, which agree. -/
theorem algebraic : Cert.algebraic_KernelIdeal_ReferenceIdeal := by
  intro m ρ m' ρ' _ hagree
  refine ⟨fun c => Cert.NodeCell.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.NodeCell.hidArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.NodeCell.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelRun.run m ρ, ?_⟩
  refine (θ_run Cert.ReferenceIdeal.defs _ _).mono (fun _ h c => ?_) (Cert.ReferenceIdeal.Value.run (F := Ideal) m' ρ')
  obtain ⟨hout, hhid, hcell, hargs⟩ := h c
  obtain ⟨e0, e1, e2, e3, e4, e5⟩ := hagree c
  refine ⟨hout.trans ?_, hhid.trans ?_, hcell.trans ?_, hargs⟩
  · rw [Cert.ReferenceIdeal.Read.val_main_v19_eq, Cert.RefRows.out_eq, e0, e1, e2, e3, e4, e5]
  · rw [Cert.ReferenceIdeal.Read.val_main_v17_eq, Cert.RefRows.hid_eq, e0, e1, e2, e4, e5]
  · rw [Cert.ReferenceIdeal.Read.val_main_v16_eq, Cert.RefRows.cell_eq, e0, e1, e2, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
